-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S110592x64 : Shape := ⟨2, ![110592, 64]⟩
abbrev S55296x128 : Shape := ⟨2, ![55296, 128]⟩
abbrev S6144x128 : Shape := ⟨2, ![6144, 128]⟩

abbrev nBuf : Space → Nat
  | .hbm => 77
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S64x64, .f32⟩
  | .hbm, ⟨63, _⟩ => ⟨S_, .f32⟩
  | .hbm, ⟨64, _⟩ => ⟨S64x64, .f32⟩
  | .hbm, ⟨65, _⟩ => ⟨S64x128, .f32⟩
  | .hbm, ⟨66, _⟩ => ⟨S64x128, .f32⟩
  | .hbm, ⟨67, _⟩ => ⟨S128x128, .f32⟩
  | .hbm, ⟨68, _⟩ => ⟨S128, .f32⟩
  | .hbm, ⟨69, _⟩ => ⟨S1x128, .f32⟩
  | .hbm, ⟨70, _⟩ => ⟨S_, .i32⟩
  | .hbm, ⟨71, _⟩ => ⟨S_, .f32⟩
  | .hbm, ⟨72, _⟩ => ⟨S110592x64, .f32⟩
  | .hbm, ⟨73, _⟩ => ⟨S55296x128, .f32⟩
  | .hbm, ⟨74, _⟩ => ⟨S55296x128, .f32⟩
  | .hbm, ⟨75, _⟩ => ⟨S110592x64, .f32⟩
  | .hbm, ⟨76, _⟩ => ⟨S100000x64, .f32⟩
  | .local _ .vmem, ⟨0, _⟩ => ⟨S6144x128, .f32⟩
  | .local _ .vmem, ⟨1, _⟩ => ⟨S6144x128, .f32⟩
  | .local _ .vmem, ⟨2, _⟩ => ⟨S128x128, .f32⟩
  | .local _ .vmem, ⟨3, _⟩ => ⟨S1x128, .f32⟩
  | .local _ .vmem, ⟨4, _⟩ => ⟨S6144x128, .f32⟩
  | .local _ .vmem, ⟨5, _⟩ => ⟨S6144x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_call1_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  pads_S100000x64_S110592x64_0105920_000 : S100000x64.Pads (![0, 0] : Fin 2 → Nat) ![10592, 0] ![0, 0] S110592x64
  h_S_ : 0 < S_.numel
  shapeCasts_S110592x64_S55296x128 : S110592x64.ShapeCasts S55296x128
  inb_S6144x128_S6144x128_0_0 : ∀ a, (![0, 0] : Fin 2 → Nat) a + S6144x128.size a ≤ S6144x128.size a
  h_S6144x128 : 0 < S6144x128.numel
  shapeCasts_S6144x128_S6144x128 : S6144x128.ShapeCasts S6144x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6144x128 : S1x128.Broadcasts S6144x128
  shapeCasts_S55296x128_S110592x64 : S55296x128.ShapeCasts S110592x64
  slices_S110592x64_S100000x64_0_0 : S110592x64.Slices ![0, 0] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S6144x128_S128x128_S6144x128_1_0_0_1_n_n_wf : DotDims.WF S6144x128 S128x128 S6144x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6144x128.size a ≤ S55296x128.size a
  hwx0_0 : ∀ i : grid0.Coords, EltTy.bits .f32 = 32 ∨ (Rect.block (s := S55296x128) S6144x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6144x128.size a ≤ S55296x128.size a
  hwx0_3 : ∀ i : grid0.Coords, EltTy.bits .f32 = 32 ∨ (Rect.block (s := S55296x128) S6144x128.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf

abbrev win0_0 : Pipeline.Window sig grid0 :=
  Pipeline.Window.ofSpec (Memref.whole main_v52) S6144x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S6144x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000, .f32⟩
  | .hbm, ⟨61, _⟩ => ⟨S1700000, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x1, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Agg.lean ====
/-
  The aggregation both programs begin with, as ONE function of the node features `x : [100000, 64]` and the edge list
  `e : [2, 1600000]`: the edges are extended by one self-loop per node; `deg[v]` counts the extended edges into `v`;
  each extended edge `(s, d)` carries the weight `deg[s]^(-1/2) · deg[d]^(-1/2)` (taken as `0` where `deg = 0`);
  and `A[d, :]` is the sum, over the extended edges into `d`, of `x[s, :]` times the edge's weight. The two programs
  spell it with the same host operations in the same order, so the certificate names it and never opens it: the
  dense layer that follows is all that differs.
-/
import proofs.«177355_j66340064854627_2_alg».proof.Proof.Gen.ReferenceIdeal
import Idealize.ShloMosaic.PureOps.Ideal

set_option maxRecDepth 8192

noncomputable section

namespace Cert.NodeLinear

open Cert.ReferenceIdeal Cert.ReferenceIdeal.Gen Idealize.ShloMosaic

/-- The aggregated node features `A : [100000, 64]`, at the exact instance, in the reference's spelling. -/
def agg (x : FVec Ideal S100000x64 .f32) (e : IVec S2x1600000 32) : FVec Ideal S100000x64 .f32 :=
  Host.scatterAdd (F := Ideal) scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x64_S1700000x1_S1700000x64_1_0_n_n_0_1_164 x (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.powf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.powf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))

end Cert.NodeLinear

end
-- ==== Proof.Spec.lean ====
/-
  The mathematics of this certificate, with no program in sight.

  Both programs first aggregate node features along the edges into one array `A : [100000, 64]` (the same host
  operations on both sides; it is never opened here) and then apply one dense linear map with a bias:

      out[n, j] = Σ_{k < 64} A[n, k] · W[j, k] + b[j]                                   (`lin`)

  The reference does exactly that. The kernel does it two rows at a time: it appends 10592 zero rows to `A`, lays
  consecutive row PAIRS side by side as one 128-wide row (`packed`), multiplies by the 128 × 128 block-diagonal
  matrix with `Wᵀ` twice on the diagonal and zeros elsewhere (`blockDiag`), adds the bias written twice (`biasTwice`),
  and finally unpacks the pairs and drops the appended rows (`unpack`). On the extended reals a product with `0` is `0`
  whatever the other factor and `0` is neutral for `+`, so the 64 products against the zero block vanish and
  the 128-term sum is the 64-term sum of the row's own half: no finiteness of the data is needed.
-/
import Idealize.ShloMosaic.PureOps.Ideal
import Idealize.ShloMosaic.Lib.ValueIdx

noncomputable section

namespace Cert.NodeLinear

open Idealize.ShloMosaic Idealize.ShloMosaic.ValueIdx

/-- The shapes, as literals (the printed programs' `S100000x64`, … are abbreviations of these). -/
abbrev Snodes : Shape := ⟨2, ![100000, 64]⟩
abbrev Sw : Shape := ⟨2, ![64, 64]⟩
abbrev Sb : Shape := ⟨1, ![64]⟩
abbrev Spacked : Shape := ⟨2, ![55296, 128]⟩
abbrev Sw2 : Shape := ⟨2, ![128, 128]⟩
abbrev Sb2 : Shape := ⟨2, ![1, 128]⟩
abbrev Spadded : Shape := ⟨2, ![110592, 64]⟩

/-- The dense layer: `out[n, j] = Σ_k A[n, k] · W[j, k] + b[j]`. -/
def lin (A : Snodes.Idx → EReal) (W : Sw.Idx → EReal) (b : Sb.Idx → EReal) : Snodes.Idx → EReal :=
  fun i => (∑ k : Fin 64, A (ix2 (i 0) k) * W (ix2 (i 1) k)) + b (ix1 (i 1))

/-- Row pairs side by side, zero rows appended: `P[r, c] = A[2r + c / 64, c % 64]` where that row exists, else `0`. -/
def packed (A : Snodes.Idx → EReal) : Spacked.Idx → EReal :=
  fun i => if h : 2 * (i 0).val + (i 1).val / 64 < 100000
    then A (ix2 ⟨2 * (i 0).val + (i 1).val / 64, h⟩ ⟨(i 1).val % 64, Nat.mod_lt _ (by decide)⟩) else 0

/-- `Wᵀ` twice on the diagonal: `M[c, q] = W[q % 64, c % 64]` when `c` and `q` lie in the same half, else `0`. -/
def blockDiag (W : Sw.Idx → EReal) : Sw2.Idx → EReal :=
  fun i => if (i 0).val / 64 = (i 1).val / 64
    then W (ix2 ⟨(i 1).val % 64, Nat.mod_lt _ (by decide)⟩ ⟨(i 0).val % 64, Nat.mod_lt _ (by decide)⟩) else 0

/-- The bias twice, as one row: `B[0, q] = b[q % 64]`. -/
def biasTwice (b : Sb.Idx → EReal) : Sb2.Idx → EReal :=
  fun i => b (ix1 ⟨(i 1).val % 64, Nat.mod_lt _ (by decide)⟩)

/-- One grid step's arithmetic on whole arrays: `O[r, q] = Σ_{c < 128} P[r, c] · M[c, q] + B[0, q]`. -/
def packedOut (P : Spacked.Idx → EReal) (M : Sw2.Idx → EReal) (B : Sb2.Idx → EReal) : Spacked.Idx → EReal :=
  fun i => (∑ c : Fin 128, P (ix2 (i 0) c) * M (ix2 c (i 1))) + B (ix2 0 (i 1))

/-- Unpacking the pairs and dropping the appended rows: `out[n, j] = O[n / 2, (n % 2) · 64 + j]`. -/
def unpack (O : Spacked.Idx → EReal) : Snodes.Idx → EReal :=
  fun i => O (ix2 ⟨(i 0).val / 2, by have := (i 0).isLt; show _ < 55296; change (i 0).val < 100000 at this; omega⟩
    ⟨(i 0).val % 2 * 64 + (i 1).val, by have := (i 1).isLt; show _ < 128; change (i 1).val < 64 at this; omega⟩)

end Cert.NodeLinear

end
-- ==== Proof.RefValue.lean ====
/-
  The reference's result, as mathematics. Its last four operations are a transpose of the weight, a `dot_general`
  of the aggregated features `A : [100000, 64]` with the transposed weight (contracting `A`'s axis 1 with the
  transpose's axis 0), two broadcasts that carry the bias `b : [64]` to `[1, 64]` and then to `[100000, 64]`, and a sum.

  At `(n, j)` the product at the exact instance is the plain sum over the one contracted coordinate,
  `Σ_{k < 64} A[n, k] · Wᵀ[k, j]`, and `Wᵀ[k, j] = W[j, k]`; the broadcasts read `b[j]`; the sum of arrays is the sum
  of entries. That is the dense layer `lin`: `Σ_k A[n, k] · W[j, k] + b[j]`. The aggregation that produces `A` is one
  named function of the inputs and is never opened.
-/
import proofs.«177355_j66340064854627_2_alg».proof.Proof.RefRun
import proofs.«177355_j66340064854627_2_alg».proof.Proof.Agg
import proofs.«177355_j66340064854627_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.ValueIdx

set_option maxRecDepth 8192 in
/-- The result term with the shared aggregation folded into its name: product of the aggregated features with the
    transposed weight, plus the broadcast bias. -/
theorem res_short (m : (ℓ : Loc nD τ sig) → Buf (Elt Ideal) ℓ) (c : Dev nD) :
    Cert.ReferenceIdeal.ValueP.res_main_v58 (F := Ideal) m c
      = addf (Host.dotGeneral (φ₁ := .f32) (φ₂ := .f32) dot_S100000x64_S64x64_S100000x64_1_0_0_1_n_n none
            (Cert.NodeLinear.agg (m ((c.tc : Thread nD τ).loc main_arg0)) (m ((c.tc : Thread nD τ).loc main_arg1)))
            (transpose S64x64 [1, 0] ((m ((c.tc : Thread nD τ).loc main_arg2)) : FVec Ideal S64x64 .f32) transposes_S64x64_S64x64_1_0))
          (broadcastInDim S100000x64 ![0, 1] bcast_S1x64_S100000x64_0_1
            (broadcastInDim S1x64 ![1] bcast_S64_S1x64_1 ((m ((c.tc : Thread nD τ).loc main_arg3)) : FVec Ideal S64 .f32))) := by
  unfold Cert.ReferenceIdeal.ValueP.res_main_v58 Cert.NodeLinear.agg
  rfl

/-- The product at `(n, j)`: the sum over the contracted coordinate, `Σ_{k < 64} A[n, k] · B[k, j]`. -/
theorem dot_apply (A : FVec Ideal S100000x64 .f32) (B : FVec Ideal S64x64 .f32) (n : Fin 100000) (j : Fin 64) :
    Host.dotGeneral dot_S100000x64_S64x64_S100000x64_1_0_0_1_n_n none A B (ix2 n j) = ∑ k : Fin 64, A (ix2 n k) * B (ix2 k j) := by
  show FloatOps.dotGeneral _ none _ A B (ix2 n j) = _
  rw [Ideal.dotGeneral_apply, ← Equiv.sum_comp (contrEquiv1 dot_S100000x64_S64x64_S100000x64_1_0_0_1_n_n 64 rfl rfl).symm]
  refine Finset.sum_congr rfl fun k _ => ?_
  -- the contraction index that corresponds to `k` has `k` as its one coordinate
  have ck := contrEquiv1_symm_val dot_S100000x64_S64x64_S100000x64_1_0_0_1_n_n 64 rfl rfl k
  -- the left operand is read at `(n, k)`: axis 0 is the result's axis 0, axis 1 is the contracted one
  have el : (dot_S100000x64_S64x64_S100000x64_1_0_0_1_n_n).lhsIdx (ix2 n j) ((contrEquiv1 dot_S100000x64_S64x64_S100000x64_1_0_0_1_n_n 64 rfl rfl).symm k) = ix2 n k := by
    funext ax
    apply Fin.ext
    match ax with
    | ⟨0, _⟩ =>
      unfold DotDims.lhsIdx
      rw [dif_neg (show ¬(⟨0, by decide⟩ : Fin S100000x64.rank) ∈ (dot_S100000x64_S64x64_S100000x64_1_0_0_1_n_n).lhsBatch by decide),
        dif_pos (show (⟨0, by decide⟩ : Fin S100000x64.rank) ∈ (dot_S100000x64_S64x64_S100000x64_1_0_0_1_n_n).lhsNonContracting by decide)]
      rfl
    | ⟨1, _⟩ => exact ((dot_S100000x64_S64x64_S100000x64_1_0_0_1_n_n).lhsIdx_val_of_single (cl := ⟨1, by decide⟩) rfl (ix2 n j) _).trans ck
  -- the right operand is read at `(k, j)`: axis 0 is the contracted one, axis 1 is the result's axis 1
  have er : (dot_S100000x64_S64x64_S100000x64_1_0_0_1_n_n).rhsIdx (ix2 n j) ((contrEquiv1 dot_S100000x64_S64x64_S100000x64_1_0_0_1_n_n 64 rfl rfl).symm k) = ix2 k j := by
    funext ax
    apply Fin.ext
    match ax with
    | ⟨0, _⟩ => exact ((dot_S100000x64_S64x64_S100000x64_1_0_0_1_n_n).rhsIdx_val_of_single (cr := ⟨0, by decide⟩) rfl (ix2 n j) _).trans ck
    | ⟨1, _⟩ =>
      unfold DotDims.rhsIdx
      rw [dif_neg (show ¬(⟨1, by decide⟩ : Fin S64x64.rank) ∈ (dot_S100000x64_S64x64_S100000x64_1_0_0_1_n_n).rhsBatch by decide),
        dif_pos (show (⟨1, by decide⟩ : Fin S64x64.rank) ∈ (dot_S100000x64_S64x64_S100000x64_1_0_0_1_n_n).rhsNonContracting by decide)]
      rfl
  rw [el, er]

/-- The transposed weight at `(k, j)` is the weight at `(j, k)`. -/
theorem transpose_w_apply (Wm : FVec Ideal S64x64 .f32) (k j : Fin 64) :
    transpose S64x64 [1, 0] Wm transposes_S64x64_S64x64_1_0 (ix2 k j) = Wm (ix2 j k) :=
  transpose_apply [1, 0] Wm transposes_S64x64_S64x64_1_0 (ix2 k j) (ix2 j k)
    (fun b => match b with | ⟨0, _⟩ => rfl | ⟨1, _⟩ => rfl)

/-- The twice-broadcast bias at `(n, j)` is `b[j]`. -/
theorem bias_apply (bv : FVec Ideal S64 .f32) (n : Fin 100000) (j : Fin 64) :
    broadcastInDim S100000x64 ![0, 1] bcast_S1x64_S100000x64_0_1
      (broadcastInDim S1x64 ![1] bcast_S64_S1x64_1 bv) (ix2 n j) = bv (ix1 j) := by
  rw [broadcastInDim_apply ![0, 1] bcast_S1x64_S100000x64_0_1 _ (ix2 n j) (ix2 (0 : Fin 1) j)
      (fun a => match a with
        | ⟨0, _⟩ => (if_pos rfl).symm
        | ⟨1, _⟩ => (if_neg (show ¬((64 : Nat) = 1) by decide)).symm),
    broadcastInDim_apply ![1] bcast_S64_S1x64_1 bv (ix2 (0 : Fin 1) j) (ix1 j)
      (fun a => match a with
        | ⟨0, _⟩ => (if_neg (show ¬((64 : Nat) = 1) by decide)).symm)]

/-- Product with the transposed weight plus the broadcast bias is the dense layer. -/
theorem dense_eq (A : FVec Ideal S100000x64 .f32) (Wm : FVec Ideal S64x64 .f32) (bv : FVec Ideal S64 .f32) :
    addf (Host.dotGeneral dot_S100000x64_S64x64_S100000x64_1_0_0_1_n_n none A (transpose S64x64 [1, 0] Wm transposes_S64x64_S64x64_1_0))
        (broadcastInDim S100000x64 ![0, 1] bcast_S1x64_S100000x64_0_1 (broadcastInDim S1x64 ![1] bcast_S64_S1x64_1 bv))
      = Cert.NodeLinear.lin A Wm bv := by
  funext i
  obtain ⟨n, j, rfl⟩ : ∃ (n : Fin 100000) (j : Fin 64), i = ix2 n j := ⟨i 0, i 1, eq_ix2 i⟩
  rw [addf_apply, dot_apply, bias_apply]
  show _ = (∑ k : Fin 64, A (ix2 n k) * Wm (ix2 j k)) + bv (ix1 j)
  rw [Finset.sum_congr rfl fun k _ => congrArg (A (ix2 n k) * ·) (transpose_w_apply Wm k j)]

/-- The reference's result is the dense layer applied to the aggregated features, the weight and the bias. -/
theorem res_eq (m : (ℓ : Loc nD τ sig) → Buf (Elt Ideal) ℓ) (c : Dev nD) :
    Cert.ReferenceIdeal.ValueP.res_main_v58 (F := Ideal) m c
      = Cert.NodeLinear.lin (Cert.NodeLinear.agg (m ((c.tc : Thread nD τ).loc main_arg0)) (m ((c.tc : Thread nD τ).loc main_arg1)))
          (m ((c.tc : Thread nD τ).loc main_arg2)) (m ((c.tc : Thread nD τ).loc main_arg3)) :=
  (res_short m c).trans (dense_eq _ _ _)

end Cert.ReferenceIdeal.RefValue

end
-- ==== Proof.Algebra.lean ====
/-
  The algebra of the certificate, with no program in sight: packing row pairs side by side, multiplying by the
  block-diagonal matrix, adding the doubled bias and unpacking again is the plain dense layer.

  Fix a row `n < 100000` and a column `j < 64`, and put `r = n / 2`, `h = n % 2`, `q = h · 64 + j`. The unpacked
  value at `(n, j)` is `Σ_{c < 128} P[r, c] · M[c, q] + B[0, q]`. The 128 columns `c` are the 64 columns `c = k` of
  the left half and the 64 columns `c = 64 + k` of the right half. In the half with `c / 64 ≠ h` the matrix entry
  `M[c, q]` is `0`, and on the extended reals `x · 0 = 0` for every `x`, so that half contributes `0`. In the half
  with `c / 64 = h` the row `2 r + c / 64 = n` exists, so `P[r, c] = A[n, k]`, and `M[c, q] = W[j, k]`. The bias entry
  `B[0, q]` is `b[q % 64] = b[j]`. Only `x · 0 = 0` and `x + 0 = x`, `0 + x = x` are used: no entry has to be finite.
-/
import proofs.«177355_j66340064854627_2_alg».proof.Proof.Spec

noncomputable section

namespace Cert.NodeLinear

open Idealize.ShloMosaic Idealize.ShloMosaic.ValueIdx

/-- Where the row exists, a packed entry is the entry of `A` it was copied from:
    `P[r, c] = A[n, k]` when `2 r + c / 64 = n` and `c % 64 = k`. -/
theorem packed_apply (A : Snodes.Idx → EReal) (r : Fin 55296) (c : Fin 128) (n : Fin 100000) (k : Fin 64)
    (hn : 2 * r.val + c.val / 64 = n.val) (hk : c.val % 64 = k.val) :
    packed A (ix2 r c) = A (ix2 n k) := by
  have hlt : 2 * r.val + c.val / 64 < 100000 := by have := n.isLt; omega
  have e : packed A (ix2 r c)
      = A (ix2 ⟨2 * r.val + c.val / 64, hlt⟩ ⟨c.val % 64, Nat.mod_lt _ (by decide)⟩) := dif_pos hlt
  have e1 : (⟨2 * r.val + c.val / 64, hlt⟩ : Fin 100000) = n := Fin.ext hn
  have e2 : (⟨c.val % 64, Nat.mod_lt _ (by decide)⟩ : Fin 64) = k := Fin.ext hk
  rw [e, e1, e2]

/-- Inside a diagonal block the matrix entry is the transposed weight:
    `M[c, q] = W[j, k]` when `c` and `q` lie in the same half, `q % 64 = j` and `c % 64 = k`. -/
theorem blockDiag_same (W : Sw.Idx → EReal) (c q : Fin 128) (j k : Fin 64)
    (hh : c.val / 64 = q.val / 64) (hj : q.val % 64 = j.val) (hk : c.val % 64 = k.val) :
    blockDiag W (ix2 c q) = W (ix2 j k) := by
  have e : blockDiag W (ix2 c q)
      = W (ix2 ⟨q.val % 64, Nat.mod_lt _ (by decide)⟩ ⟨c.val % 64, Nat.mod_lt _ (by decide)⟩) := if_pos hh
  have e1 : (⟨q.val % 64, Nat.mod_lt _ (by decide)⟩ : Fin 64) = j := Fin.ext hj
  have e2 : (⟨c.val % 64, Nat.mod_lt _ (by decide)⟩ : Fin 64) = k := Fin.ext hk
  rw [e, e1, e2]

/-- Outside the diagonal blocks the matrix entry is `0`. -/
theorem blockDiag_other (W : Sw.Idx → EReal) (c q : Fin 128) (hh : c.val / 64 ≠ q.val / 64) :
    blockDiag W (ix2 c q) = 0 := if_neg hh

/-- The doubled bias read at column `q` is the bias at `q % 64`. -/
theorem biasTwice_apply (b : Sb.Idx → EReal) (q : Fin 128) (j : Fin 64) (hq : q.val % 64 = j.val) :
    biasTwice b (ix2 0 q) = b (ix1 j) := by
  have e : (⟨q.val % 64, Nat.mod_lt _ (by decide)⟩ : Fin 64) = j := Fin.ext hq
  show b (ix1 ⟨q.val % 64, Nat.mod_lt _ (by decide)⟩) = b (ix1 j)
  rw [e]

/-- A sum over 128 columns is the sum over the left 64 plus the sum over the right 64. -/
theorem sum_halves (f : Fin 128 → EReal) :
    ∑ c : Fin 128, f c
      = ∑ k : Fin 64, f ⟨k.val, by have := k.isLt; omega⟩ + ∑ k : Fin 64, f ⟨64 + k.val, by have := k.isLt; omega⟩ :=
  Fin.sum_univ_add (a := 64) (b := 64) f

/-- A term of the own half: `P[r, c] · M[c, q] = A[n, k] · W[j, k]`. -/
theorem term_same (A : Snodes.Idx → EReal) (W : Sw.Idx → EReal) (n : Fin 100000) (j k : Fin 64) (r : Fin 55296)
    (c q : Fin 128) (hn : 2 * r.val + c.val / 64 = n.val) (hk : c.val % 64 = k.val)
    (hh : c.val / 64 = q.val / 64) (hj : q.val % 64 = j.val) :
    packed A (ix2 r c) * blockDiag W (ix2 c q) = A (ix2 n k) * W (ix2 j k) := by
  rw [packed_apply A r c n k hn hk, blockDiag_same W c q j k hh hj hk]

/-- A term of the other half vanishes, whatever the packed entry is: `x · 0 = 0` on the extended reals. -/
theorem term_other (A : Snodes.Idx → EReal) (W : Sw.Idx → EReal) (r : Fin 55296) (c q : Fin 128)
    (hh : c.val / 64 ≠ q.val / 64) :
    packed A (ix2 r c) * blockDiag W (ix2 c q) = 0 := by
  rw [blockDiag_other W c q hh, mul_zero]

/-- The 128-term row-by-column sum at packed row `r = n / 2` and column `q = (n % 2) · 64 + j` is the 64-term sum
    of the dense layer at `(n, j)`. -/
theorem row_sum (A : Snodes.Idx → EReal) (W : Sw.Idx → EReal) (n : Fin 100000) (j : Fin 64) (r : Fin 55296)
    (q : Fin 128) (hr : r.val = n.val / 2) (hq : q.val = n.val % 2 * 64 + j.val) :
    ∑ c : Fin 128, packed A (ix2 r c) * blockDiag W (ix2 c q) = ∑ k : Fin 64, A (ix2 n k) * W (ix2 j k) := by
  have hj := j.isLt
  refine (sum_halves fun c => packed A (ix2 r c) * blockDiag W (ix2 c q)).trans ?_
  rcases Nat.mod_two_eq_zero_or_one n.val with h | h
  · -- an even row sits in the left half: the right half of the sum is zero
    have e1 : ∑ k : Fin 64, packed A (ix2 r ⟨k.val, by have := k.isLt; omega⟩)
          * blockDiag W (ix2 ⟨k.val, by have := k.isLt; omega⟩ q) = ∑ k : Fin 64, A (ix2 n k) * W (ix2 j k) :=
      Finset.sum_congr rfl fun k _ => by
        have hk := k.isLt
        exact term_same A W n j k r _ q (by show 2 * r.val + k.val / 64 = n.val; omega)
          (by show k.val % 64 = k.val; omega) (by show k.val / 64 = q.val / 64; omega) (by omega)
    have e2 : ∑ k : Fin 64, packed A (ix2 r ⟨64 + k.val, by have := k.isLt; omega⟩)
          * blockDiag W (ix2 ⟨64 + k.val, by have := k.isLt; omega⟩ q) = 0 :=
      Finset.sum_eq_zero fun k _ => by
        have hk := k.isLt
        exact term_other A W r _ q (by show (64 + k.val) / 64 ≠ q.val / 64; omega)
    rw [e1, e2, add_zero]
  · -- an odd row sits in the right half: the left half of the sum is zero
    have e1 : ∑ k : Fin 64, packed A (ix2 r ⟨k.val, by have := k.isLt; omega⟩)
          * blockDiag W (ix2 ⟨k.val, by have := k.isLt; omega⟩ q) = 0 :=
      Finset.sum_eq_zero fun k _ => by
        have hk := k.isLt
        exact term_other A W r _ q (by show k.val / 64 ≠ q.val / 64; omega)
    have e2 : ∑ k : Fin 64, packed A (ix2 r ⟨64 + k.val, by have := k.isLt; omega⟩)
          * blockDiag W (ix2 ⟨64 + k.val, by have := k.isLt; omega⟩ q) = ∑ k : Fin 64, A (ix2 n k) * W (ix2 j k) :=
      Finset.sum_congr rfl fun k _ => by
        have hk := k.isLt
        exact term_same A W n j k r _ q (by show 2 * r.val + (64 + k.val) / 64 = n.val; omega)
          (by show (64 + k.val) % 64 = k.val; omega) (by show (64 + k.val) / 64 = q.val / 64; omega) (by omega)
    rw [e1, e2, zero_add]

/-- Packing, the block-diagonal product with the doubled bias, and unpacking together are the dense layer. -/
theorem unpack_packedOut (A : Snodes.Idx → EReal) (W : Sw.Idx → EReal) (b : Sb.Idx → EReal) :
    unpack (packedOut (packed A) (blockDiag W) (biasTwice b)) = lin A W b := by
  funext i
  obtain ⟨n, j, rfl⟩ : ∃ (n : Fin 100000) (j : Fin 64), i = ix2 n j := ⟨i 0, i 1, eq_ix2 i⟩
  have hn := n.isLt
  have hj := j.isLt
  have hsum := row_sum A W n j ⟨n.val / 2, by omega⟩ ⟨n.val % 2 * 64 + j.val, by omega⟩ rfl rfl
  have hb := biasTwice_apply b ⟨n.val % 2 * 64 + j.val, by omega⟩ j
    (by show (n.val % 2 * 64 + j.val) % 64 = j.val; omega)
  exact congrArg₂ (· + ·) hsum hb

end Cert.NodeLinear

end
-- ==== Proof.Body.lean ====
/-
  One grid step's arithmetic, read at an index.

  The kernel body loads a 6144 × 128 block `x` of packed rows, the 128 × 128 matrix `w` and the 1 × 128 bias row `b`, and
  stores  `x · w + b`  (the product on the matrix unit into a zero accumulator, the operands narrowed to bf16 first —
  at the exact instance a change of format is the identity —, the bias row repeated down the rows). Read at row `p`,
  column `q`:

      payload[p, q] = Σ_{k < 128} x[p, k] · w[k, q] + b[0, q].

  The contraction index of the product is a one-coordinate index; it is exchanged for `k : Fin 128`, and the operand
  indices the dimension numbers compute at output `(p, q)` and contraction `k` are `(p, k)` and `(k, q)`.
-/
import proofs.«177355_j66340064854627_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the block product -/

/-- The left operand's row is the output's row. -/
theorem lhs_row (i : S6144x128.Idx) (q : dot_S6144x128_S128x128_S6144x128_1_0_0_1_n_n.contr.Idx) :
    (dot_S6144x128_S128x128_S6144x128_1_0_0_1_n_n.lhsIdx i q 0).val = (i 0).val := by
  unfold DotDims.lhsIdx
  rw [dif_neg (show ¬(0 : Fin S6144x128.rank) ∈ dot_S6144x128_S128x128_S6144x128_1_0_0_1_n_n.lhsBatch by decide),
    dif_pos (show (0 : Fin S6144x128.rank) ∈ dot_S6144x128_S128x128_S6144x128_1_0_0_1_n_n.lhsNonContracting by decide)]
  rfl

/-- The left operand's column is the contraction coordinate. -/
theorem lhs_col (i : S6144x128.Idx) (q : dot_S6144x128_S128x128_S6144x128_1_0_0_1_n_n.contr.Idx) :
    (dot_S6144x128_S128x128_S6144x128_1_0_0_1_n_n.lhsIdx i q 1).val = (q ⟨0, by decide⟩).val :=
  dot_S6144x128_S128x128_S6144x128_1_0_0_1_n_n.lhsIdx_val_of_single rfl i q

/-- The right operand's row is the contraction coordinate. -/
theorem rhs_row (i : S6144x128.Idx) (q : dot_S6144x128_S128x128_S6144x128_1_0_0_1_n_n.contr.Idx) :
    (dot_S6144x128_S128x128_S6144x128_1_0_0_1_n_n.rhsIdx i q 0).val = (q ⟨0, by decide⟩).val :=
  dot_S6144x128_S128x128_S6144x128_1_0_0_1_n_n.rhsIdx_val_of_single rfl i q

/-- The right operand's column is the output's column. -/
theorem rhs_col (i : S6144x128.Idx) (q : dot_S6144x128_S128x128_S6144x128_1_0_0_1_n_n.contr.Idx) :
    (dot_S6144x128_S128x128_S6144x128_1_0_0_1_n_n.rhsIdx i q 1).val = (i 1).val := by
  unfold DotDims.rhsIdx
  rw [dif_neg (show ¬(1 : Fin S128x128.rank) ∈ dot_S6144x128_S128x128_S6144x128_1_0_0_1_n_n.rhsBatch by decide),
    dif_pos (show (1 : Fin S128x128.rank) ∈ dot_S6144x128_S128x128_S6144x128_1_0_0_1_n_n.rhsNonContracting by decide)]
  rfl

/-- The block product into a zero accumulator at `(p, q)`: the sum over `k < 128` of `l[p, k] · r[k, q]`. -/
theorem product_apply {φ₁ φ₂ : FTy} (l : FVec Ideal S6144x128 φ₁) (r : FVec Ideal S128x128 φ₂) (p : Fin 6144) (q : Fin 128) :
    FloatOps.matmul dot_S6144x128_S128x128_S6144x128_1_0_0_1_n_n none l r (constant S6144x128 .f32 0x00000000#32) (ix2 p q)
      = ∑ k : Fin 128, l (ix2 p k) * r (ix2 k q) := by
  rw [Ideal.matmul_constant_zero_apply,
    ← Equiv.sum_comp (ValueIdx.contrEquiv1 dot_S6144x128_S128x128_S6144x128_1_0_0_1_n_n 128 rfl rfl).symm]
  refine Finset.sum_congr rfl fun k _ => ?_
  have hk := ValueIdx.contrEquiv1_symm_val dot_S6144x128_S128x128_S6144x128_1_0_0_1_n_n 128 rfl rfl k
  have el : dot_S6144x128_S128x128_S6144x128_1_0_0_1_n_n.lhsIdx (ix2 p q)
      ((ValueIdx.contrEquiv1 dot_S6144x128_S128x128_S6144x128_1_0_0_1_n_n 128 rfl rfl).symm k) = ix2 p k :=
    funext fun a => Fin.ext (by
      match a with
      | ⟨0, _⟩ => exact lhs_row _ _
      | ⟨1, _⟩ => exact (lhs_col _ _).trans hk)
  have er : dot_S6144x128_S128x128_S6144x128_1_0_0_1_n_n.rhsIdx (ix2 p q)
      ((ValueIdx.contrEquiv1 dot_S6144x128_S128x128_S6144x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row repeated down the rows, at `(p, q)`: the row's entry at column `q`. -/
theorem bias_apply (b : FVec Ideal S1x128 .f32) (p : Fin 6144) (q : Fin 128) :
    broadcastTo S6144x128 b broadcasts_S1x128_S6144x128 (ix2 p q) = b (ix2 0 q) :=
  broadcastTo_apply b broadcasts_S1x128_S6144x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-! ## The payload -/

/-- The stored value at row `p`, column `q`. -/
theorem payload_apply (x : Vec Ideal S6144x128 .f32) (w : Vec Ideal S128x128 .f32) (b : Vec Ideal S1x128 .f32)
    (p : Fin 6144) (q : Fin 128) :
    k0_pay1 x w b (ix2 p q) = (∑ k : Fin 128, x (ix2 p k) * w (ix2 k q)) + b (ix2 0 q) := by
  show (addf (F := Ideal) (matmul (F := Ideal) dot_S6144x128_S128x128_S6144x128_1_0_0_1_n_n none
      (truncf (F := Ideal) .bf16 (shapeCast S6144x128 (x : FVec Ideal S6144x128 .f32) shapeCasts_S6144x128_S6144x128) bitsLt_bf16_f32)
      (truncf (F := Ideal) .bf16 (shapeCast S128x128 (w : FVec Ideal S128x128 .f32) shapeCasts_S128x128_S128x128) bitsLt_bf16_f32)
      (constant (F := Ideal) S6144x128 .f32 0x00000000#32))
    (broadcastTo S6144x128 (shapeCast S1x128 (b : FVec Ideal S1x128 .f32) shapeCasts_S1x128_S1x128) broadcasts_S1x128_S6144x128)) (ix2 p q) = _
  rw [shapeCast_self, shapeCast_self, shapeCast_self, addf_apply, bias_apply]
  refine congrArg (· + b (ix2 0 q)) ?_
  exact product_apply _ _ p q

/-! ## What the body leaves in the output block -/

theorem origin : (![0, 0] : Fin 2 → Nat) = fun _ => 0 := funext fun a => by fin_cases a <;> rfl

/-- The body's one store covers the whole output block, so the block after the body is the payload of the three
    loaded blocks. -/
theorem out_eq (x : Vec Ideal S6144x128 .f32) (w : Vec Ideal S128x128 .f32) (b : Vec Ideal S1x128 .f32) :
    out0_3 x w b = k0_pay1 x w b := by
  unfold out0_3
  rw [View.canon_unit_zero origin]
  simp only [View.ld_unit_zero (S := S6144x128) origin, View.ld_unit_zero (S := S128x128) origin,
    View.ld_unit_zero (S := S1x128) origin]

end Cert.KernelIdeal.Body

end
-- ==== Proof.Blocks.lean ====
/-
  From grid steps to the whole output array.

  The grid has nine points. At point `t` the first operand's window is rows `6144·t … 6144·t + 6143` of the packed
  array, the weight and the bias windows are their whole arrays at every point, and the output window is rows
  `6144·t … 6144·t + 6143` of the output. One step's arithmetic (the body's payload, read at an index) is row-wise:
  output row `r` needs only packed row `r`. So what point `t` writes back is block `t` of ONE whole-array function,

      O[r, q] = Σ_{c < 128} P[r, c] · M[c, q] + B[0, q]          (`packedOut`)

  of the three arrays `P`, `M`, `B` as the region finds them; the nine blocks tile the 55296 rows (row `r` lies in
  block `r / 6144`), so after the last write-back the output array IS that function.
-/
import proofs.«177355_j66340064854627_2_alg».proof.Proof.Gen.KernelIdeal.Frame
import proofs.«177355_j66340064854627_2_alg».proof.Proof.Body
import proofs.«177355_j66340064854627_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## One step, as a block of the whole-array function -/

/-- If the loaded block `x` is rows `r0·6144 …` of `P`, and `w`, `b` are `M`, `B`, then the payload at block position `y`
    is `packedOut P M B` at the array position `i` with `i = (r0·6144 + y₀, y₁)`. -/
theorem block_value (P : S55296x128.Idx → EReal) (M : S128x128.Idx → EReal) (B : S1x128.Idx → EReal)
    (x : Vec Ideal S6144x128 .f32) (w : Vec Ideal S128x128 .f32) (b : Vec Ideal S1x128 .f32) (r0 : Nat)
    (hx : ∀ (p : Fin 6144) (k : Fin 128) (i : S55296x128.Idx), (i 0).val = r0 * 6144 + p.val → (i 1).val = k.val →
      x (ix2 p k) = P i)
    (hw : ∀ k q : Fin 128, w (ix2 k q) = M (ix2 k q))
    (hb : ∀ q : Fin 128, b (ix2 0 q) = B (ix2 0 q))
    (y : S6144x128.Idx) (i : S55296x128.Idx) (hi0 : (i 0).val = r0 * 6144 + (y 0).val) (hi1 : (i 1).val = (y 1).val) :
    k0_pay1 x w b y = Cert.NodeLinear.packedOut P M B i := by
  obtain ⟨p, q, rfl⟩ : ∃ (p : Fin 6144) (q : Fin 128), y = ix2 p q := ⟨y 0, y 1, eq_ix2 y⟩
  obtain ⟨r, q', rfl⟩ : ∃ (r : Fin 55296) (q' : Fin 128), i = ix2 r q' := ⟨i 0, i 1, eq_ix2 i⟩
  have hq : q' = q := Fin.ext hi1
  subst hq
  rw [Body.payload_apply]
  unfold Cert.NodeLinear.packedOut
  refine congrArg₂ (· + ·) (Finset.sum_congr rfl fun k _ => ?_) (hb q')
  rw [hx p k (ix2 r k) hi0 rfl, hw]

/-! ## The windows over the grid -/

/-- The printed index maps, decided over the nine points: the first operand and the output step one block of rows
    per point, the weight and the bias stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 9 :=
  (by decide +kernel : ∀ t : Fin grid0.N, _)

/-- Every block of rows is some point's. -/
theorem idx_onto : ∀ q0 : Fin 9, ∃ t : Fin cfg0.N, win0_3.index t = ![q0.val, 0] :=
  (by decide +kernel : ∀ q0 : Fin 9, ∃ t : Fin grid0.N, win0_3.index t = ![q0.val, 0])

variable (m : (ℓ : Loc nD τ sig) → Buf (Elt Ideal) ℓ)

/-- WHAT POINT `t` WRITES BACK is block `t` of `packedOut` of the three operand arrays as the region finds them. -/
theorem flushed_eq (c : Dev nD) (t : Fin cfg0.N) :
    (dats m 0 c).flushed 3 t = ((cfg0.win 3).blk t).view.read (Elt Ideal)
      (Cert.NodeLinear.packedOut (V m c main_v52) (V m c main_v48) (V m c main_v50)) := by
  show (cfg0.win 3).cut (grid0.coords t) ((dats m 0 c).after 3 t) = _
  rw [after0_3, Body.out_eq]
  obtain ⟨e00, e01, e10, e11, e20, e21, e30, e31, ht⟩ := idx_facts t
  funext y
  show k0_pay1 (iblk m c 0 t) (iblk m c 1 t) (iblk m c 2 t) y
    = Cert.NodeLinear.packedOut (V m c main_v52) (V m c main_v48) (V m c main_v50) (((cfg0.win 3).blk t).view.emb y)
  refine block_value (V m c main_v52) (V m c main_v48) (V m c main_v50) (iblk m c 0 t) (iblk m c 1 t) (iblk m c 2 t)
    t.val ?_ ?_ ?_ y (((cfg0.win 3).blk t).view.emb y) ?_ ?_
  · intro p k i h0 h1
    show V m c main_v52 (((cfg0.win 0).blk t).view.emb (ix2 p k)) = V m c main_v52 i
    refine congrArg _ (funext fun a => Fin.ext ?_)
    match a with
    | ⟨0, _⟩ => show win0_0.index t (0 : Fin 2) * 6144 + 1 * p.val = (i 0).val; omega
    | ⟨1, _⟩ => show win0_0.index t (1 : Fin 2) * 128 + 1 * k.val = (i 1).val; omega
  · intro k q
    show V m c main_v48 (((cfg0.win 1).blk t).view.emb (ix2 k q)) = V m c main_v48 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · intro q
    show V m c main_v50 (((cfg0.win 2).blk t).view.emb (ix2 0 q)) = V m c main_v50 (ix2 0 q)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · show win0_3.index t (0 : Fin 2) * 6144 + 1 * (y 0).val = t.val * 6144 + (y 0).val; omega
  · show win0_3.index t (1 : Fin 2) * 128 + 1 * (y 1).val = (y 1).val; omega

/-- An index of the output array is in point `t`'s block iff each coordinate is in the block's range on its axis. -/
theorem mem_blk (t : Fin cfg0.N) (i : S55296x128.Idx) :
    i ∈ ((cfg0.win 3).blk t).view.set ↔ ∀ a : Fin 2, win0_3.index t a * S6144x128.size a ≤ (i a).val
      ∧ (i a).val < win0_3.index t a * S6144x128.size a + S6144x128.size a := by
  show i ∈ ((View.whole main_v53).slice (win0_3.rect t)).set ↔ _
  rw [View.set_slice_whole, Rect.mem_set_unit]
  exact Iff.rfl

/-- The nine blocks tile the output: row `r` lies in the block of point `r / 6144`. -/
theorem cover (i : S55296x128.Idx) :
    ∃ t : Fin cfg0.N, (cfg0.win 3).flush t = true ∧ i ∈ ((cfg0.win 3).blk t).view.set := by
  have hi0 : (i 0).val < 55296 := (i 0).isLt
  have hi1 : (i 1).val < 128 := (i 1).isLt
  obtain ⟨t, ht⟩ := idx_onto ⟨(i 0).val / 6144, by omega⟩
  have q0 : win0_3.index t (0 : Fin 2) = (i 0).val / 6144 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 6144 ≤ (i 0).val ∧ (i 0).val < win0_3.index t (0 : Fin 2) * 6144 + 6144
    omega
  | ⟨1, _⟩ =>
    show win0_3.index t (1 : Fin 2) * 128 ≤ (i 1).val ∧ (i 1).val < win0_3.index t (1 : Fin 2) * 128 + 128
    omega

/-- THE OUTPUT ARRAY after the run: `packedOut` of the three operand arrays as the region finds them. -/
theorem final (c : Dev nD) :
    (dats m 0 c).arrAt 3 cfg0.N = Cert.NodeLinear.packedOut (V m c main_v52) (V m c main_v48) (V m c main_v50) :=
  (dats m 0 c).arrAt_eq_of_cover 3 _ (fun t _ => flushed_eq m c t) cover

end Cert.KernelIdeal.Blocks

end
-- ==== Proof.Tail.lean ====
/-
  The two host operations after the region, as mathematics. The region leaves the packed result
  `O : [55296, 128]`; the program then reshapes it to `[110592, 64]` and keeps the first `100000` rows.

  A reshape keeps every element at its row-major position. Entry `(n, j)` of the `[110592, 64]` array sits at position
  `n · 64 + j`; the entry of the `[55296, 128]` array at that position is `(n / 2, (n % 2) · 64 + j)`, because
  `(n / 2) · 128 + (n % 2) · 64 + j = n · 64 + j`. The slice starts at `(0, 0)`, so it reads entry `(n, j)` itself for
  `n < 100000`. Together: `out[n, j] = O[n / 2, (n % 2) · 64 + j]`, which is `unpack O`.
-/
import proofs.«177355_j66340064854627_2_alg».proof.Proof.Gen.KernelIdeal.Frame
import proofs.«177355_j66340064854627_2_alg».proof.Proof.Spec
import Idealize.ShloMosaic.Lib.StableHlo.Run
import Idealize.ShloMosaic.Lib.Pipeline.Value
import Idealize.ShloMosaic.Lib.ValueIdx

noncomputable section

namespace Cert.KernelIdeal.Tail

open Cert.KernelIdeal Cert.KernelIdeal.Gen Idealize.ShloMosaic Idealize.ShloMosaic.TcCoe Idealize.SL.Sem
  Idealize.ShloMosaic.StableHlo Idealize.ShloMosaic.ValueIdx
open Idealize.ShloMosaic.Pipeline (Dat)

/-- Reshaping `[55296, 128]` to `[110592, 64]` and keeping the first `100000` rows reads
    `O[n / 2, (n % 2) · 64 + j]` at `(n, j)`: both entries sit at row-major position `n · 64 + j`. -/
theorem slice_reshape_eq_unpack (O : S55296x128.Idx → EReal) (hc : S55296x128.ShapeCasts S110592x64)
    (hs : S110592x64.Slices ![0, 0] S100000x64) :
    extractStridedSlice S100000x64 ![0, 0] (shapeCast S110592x64 O hc) hs = Cert.NodeLinear.unpack O := by
  funext i
  obtain ⟨n, j, rfl⟩ : ∃ (n : Fin 100000) (j : Fin 64), i = ix2 n j := ⟨i 0, i 1, eq_ix2 i⟩
  have hn := n.isLt
  have hj := j.isLt
  -- the slice starts at (0, 0): it reads the reshaped array at (n, j)
  rw [extractStridedSlice_apply ![0, 0] _ hs (ix2 n j) (ix2 (⟨n.val, by omega⟩ : Fin 110592) j)
      (fun a => match a with
        | ⟨0, _⟩ => (Nat.zero_add _).symm
        | ⟨1, _⟩ => (Nat.zero_add _).symm)]
  -- the reshape keeps the row-major position: (n / 2) · 128 + ((n % 2) · 64 + j) = n · 64 + j
  rw [shapeCast_apply O hc (ix2 (⟨n.val, by omega⟩ : Fin 110592) j)
      (ix2 (⟨n.val / 2, by omega⟩ : Fin 55296) (⟨n.val % 2 * 64 + j.val, by omega⟩ : Fin 128))
      (by
        rw [Shape.rowMajor_val_two, Shape.rowMajor_val_two]
        show n.val / 2 * 128 + (n.val % 2 * 64 + j.val) = n.val * 64 + j.val
        omega)]
  rfl

variable (m : (ℓ : Loc nD τ sig) → Buf (Elt Ideal) ℓ)

/-- The program's result after the two host operations is the unpacking of what the region leaves in its output
    array. -/
theorem tail_eq (c : Dev nD) :
    Pipeline.afterTail₀ cfgs (dats m) 0 (V0 m) [hostOps1] c main_v55
      = Cert.NodeLinear.unpack ((dats m 0 c).arrAt 3 cfg0.N) := by
  unfold Pipeline.afterTail₀
  show StableHlo.after hostOps1 _ (Proc.devRef .tc main_v55) = _
  after_results
  rw [Pipeline.withArrays_arr spec0 launch0.win.arr_inj c _ _ 3]
  generalize (dats m 0 c).arrAt 3 cfg0.N = O
  exact slice_reshape_eq_unpack O _ _

end Cert.KernelIdeal.Tail

end
-- ==== Proof.HostWeights.lean ====
/-
  What the region finds in its two small operands: the 128 × 128 block-diagonal weight and the bias written twice.

  The host builds the weight as  [[Wᵀ, 0], [0, Wᵀ]]  from three concatenations of the transposed 64 × 64 weight and a
  64 × 64 zero block, and the bias row as the bias vector concatenated with itself and cast to one row of 128.
  Read at an index (p, q): p / 64 picks the upper or lower band, q / 64 the left or right block, so the entry is
  W[q % 64, p % 64] when p and q lie in the same half and 0 otherwise; the bias row at (0, q) is b[q % 64].
-/
import proofs.«177355_j66340064854627_2_alg».proof.Proof.Gen.KernelIdeal.Frame
import proofs.«177355_j66340064854627_2_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 16384
noncomputable section
namespace Cert.KernelIdeal.HostPrefix
open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The host operations' terms -/

set_option maxHeartbeats 8000000 in
/-- The weight operand as the host operations spell it: three concatenations of the transposed weight and a zero block. -/
theorem V_w2_term (c : Dev nD) : (Gen.V m c main_v48 : S128x128.Idx → EReal) =
    concatenate S128x128 0
      [⟨S64x128, concatenate S64x128 1
          [⟨S64x64, transpose S64x64 [1, 0] (m ((c.tc : Thread nD τ).loc main_arg2)) transposes_S64x64_S64x64_1_0⟩,
           ⟨S64x64, broadcastInDim S64x64 ![] bcast_S_S64x64 (constant (F := Ideal) S_ .f32 0x00000000#32)⟩]
          concatenates_S64x64_S64x64_S64x128_d1⟩,
       ⟨S64x128, concatenate S64x128 1
          [⟨S64x64, broadcastInDim S64x64 ![] bcast_S_S64x64 (constant (F := Ideal) S_ .f32 0x00000000#32)⟩,
           ⟨S64x64, transpose S64x64 [1, 0] (m ((c.tc : Thread nD τ).loc main_arg2)) transposes_S64x64_S64x64_1_0⟩]
          concatenates_S64x64_S64x64_S64x128_d1⟩]
      concatenates_S64x128_S64x128_S128x128_d0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 8000000 in
/-- The bias operand as the host operations spell it: the bias concatenated with itself, cast to one row. -/
theorem V_b2_term (c : Dev nD) : (Gen.V m c main_v50 : S1x128.Idx → EReal) =
    shapeCast S1x128 (concatenate S128 0 [⟨S64, m ((c.tc : Thread nD τ).loc main_arg3)⟩, ⟨S64, m ((c.tc : Thread nD τ).loc main_arg3)⟩] concatenates_S64_S64_S128_d0) shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

/-! ## Reads of the layout operations at an index, at the literal extents met here -/

section Reads
variable {α : Type}

/-- The transposed 64 × 64 matrix at `(a, b)` is the matrix at `(b, a)`. -/
theorem transpose_read (W : S64x64.Idx → α) (h : S64x64.Transposes [1, 0] S64x64) (a b : Fin 64) :
    transpose S64x64 [1, 0] W h (ix2 a b) = W (ix2 b a) :=
  transpose_apply [1, 0] W h (ix2 a b) (ix2 b a) (fun d => by
    match d with
    | ⟨0, _⟩ => rfl
    | ⟨1, _⟩ => rfl)

/-- Two 64 × 64 matrices side by side, read left of the seam: the first one, same position. -/
theorem hcat_left (x₁ x₂ : S64x64.Idx → α) (h : Shape.Concatenates [S64x64, S64x64] S64x128 1)
    (p : Fin 64) (q : Fin 128) (hq : q.val < 64) :
    concatenate S64x128 1 [⟨S64x64, x₁⟩, ⟨S64x64, x₂⟩] h (ix2 p q) = x₁ (ix2 p ⟨q.val, hq⟩) :=
  concatenate_pair_apply_left (1 : Fin 2) x₁ x₂ h (ix2 p q) rfl (ix2 p ⟨q.val, hq⟩) (fun d => by
    match d with
    | ⟨0, _⟩ => rfl
    | ⟨1, _⟩ => rfl)

/-- Two 64 × 64 matrices side by side, read at or right of the seam: the second one, 64 columns to the left. -/
theorem hcat_right (x₁ x₂ : S64x64.Idx → α) (h : Shape.Concatenates [S64x64, S64x64] S64x128 1)
    (p : Fin 64) (q : Fin 128) (hq : 64 ≤ q.val) :
    concatenate S64x128 1 [⟨S64x64, x₁⟩, ⟨S64x64, x₂⟩] h (ix2 p q)
      = x₂ (ix2 p ⟨q.val - 64, by have := q.isLt; omega⟩) :=
  concatenate_pair_apply_right (1 : Fin 2) x₁ x₂ h (ix2 p q) rfl rfl (ix2 p ⟨q.val - 64, by have := q.isLt; omega⟩)
    (fun d hd => by
      match d, hd with
      | ⟨0, _⟩, _ => rfl
      | ⟨1, _⟩, hd => exact absurd rfl hd)
    (by show (q.val - 64) + 64 = q.val; omega)

/-- Two 64 × 128 matrices one above the other, read above the seam: the first one, same position. -/
theorem vcat_top (x₁ x₂ : S64x128.Idx → α) (h : Shape.Concatenates [S64x128, S64x128] S128x128 0)
    (p : Fin 128) (q : Fin 128) (hp : p.val < 64) :
    concatenate S128x128 0 [⟨S64x128, x₁⟩, ⟨S64x128, x₂⟩] h (ix2 p q) = x₁ (ix2 ⟨p.val, hp⟩ q) :=
  concatenate_pair_apply_left (0 : Fin 2) x₁ x₂ h (ix2 p q) rfl (ix2 ⟨p.val, hp⟩ q) (fun d => by
    match d with
    | ⟨0, _⟩ => rfl
    | ⟨1, _⟩ => rfl)

/-- Two 64 × 128 matrices one above the other, read at or below the seam: the second one, 64 rows up. -/
theorem vcat_bot (x₁ x₂ : S64x128.Idx → α) (h : Shape.Concatenates [S64x128, S64x128] S128x128 0)
    (p : Fin 128) (q : Fin 128) (hp : 64 ≤ p.val) :
    concatenate S128x128 0 [⟨S64x128, x₁⟩, ⟨S64x128, x₂⟩] h (ix2 p q)
      = x₂ (ix2 ⟨p.val - 64, by have := p.isLt; omega⟩ q) :=
  concatenate_pair_apply_right (0 : Fin 2) x₁ x₂ h (ix2 p q) rfl rfl (ix2 ⟨p.val - 64, by have := p.isLt; omega⟩ q)
    (fun d hd => by
      match d, hd with
      | ⟨0, _⟩, hd => exact absurd rfl hd
      | ⟨1, _⟩, _ => rfl)
    (by show (p.val - 64) + 64 = p.val; omega)

/-- Two vectors of 64 end to end, read before the seam: the first one, same position. -/
theorem vec_left (x₁ x₂ : S64.Idx → α) (h : Shape.Concatenates [S64, S64] S128 0) (q : Fin 128) (hq : q.val < 64) :
    concatenate S128 0 [⟨S64, x₁⟩, ⟨S64, x₂⟩] h (ix1 q) = x₁ (ix1 ⟨q.val, hq⟩) :=
  concatenate_pair_apply_left (0 : Fin 1) x₁ x₂ h (ix1 q) rfl (ix1 ⟨q.val, hq⟩) (fun d => by
    match d with
    | ⟨0, _⟩ => rfl)

/-- Two vectors of 64 end to end, read at or past the seam: the second one, 64 places earlier. -/
theorem vec_right (x₁ x₂ : S64.Idx → α) (h : Shape.Concatenates [S64, S64] S128 0) (q : Fin 128) (hq : 64 ≤ q.val) :
    concatenate S128 0 [⟨S64, x₁⟩, ⟨S64, x₂⟩] h (ix1 q) = x₂ (ix1 ⟨q.val - 64, by have := q.isLt; omega⟩) :=
  concatenate_pair_apply_right (0 : Fin 1) x₁ x₂ h (ix1 q) rfl rfl (ix1 ⟨q.val - 64, by have := q.isLt; omega⟩)
    (fun d hd => by
      match d, hd with
      | ⟨0, _⟩, hd => exact absurd rfl hd)
    (by show (q.val - 64) + 64 = q.val; omega)

/-- A vector of 128 cast to one row of 128, read at `(0, q)`: the vector at `q`. -/
theorem row_read (x : S128.Idx → α) (h : S128.ShapeCasts S1x128) (r : Fin 1) (q : Fin 128) :
    shapeCast S1x128 x h (ix2 r q) = x (ix1 q) :=
  shapeCast_apply x h (ix2 r q) (ix1 q) (by
    rw [Shape.rowMajor_val_one, Shape.rowMajor_val_two]
    show q.val = r.val * 128 + q.val
    have := r.isLt
    omega)

end Reads

/-- The 64 × 64 zero block (the zero word broadcast) reads `0` everywhere. -/
theorem zero_read (h : S_.BroadcastsInDim S64x64 (![] : Fin 0 → Fin S64x64.rank)) (j : S64x64.Idx) :
    (broadcastInDim S64x64 ![] h (constant (F := Ideal) S_ .f32 0x00000000#32) : S64x64.Idx → EReal) j = 0 := by
  rw [broadcastInDim_scalar_apply, constant_apply, Ideal.ofBits_zero_f32]

/-! ## The two operands as functions of the weight and the bias -/

/-- `[[Wᵀ, 0], [0, Wᵀ]]` built by three concatenations is the block-diagonal matrix: at `(p, q)` the band `p / 64`
    and the block `q / 64` agree exactly on the two diagonal blocks, where the entry is `Wᵀ[p % 64, q % 64] = W[q % 64, p % 64]`. -/
theorem blockDiag_read (W : S64x64.Idx → EReal) (hT : S64x64.Transposes [1, 0] S64x64)
    (hZ : S_.BroadcastsInDim S64x64 (![] : Fin 0 → Fin S64x64.rank))
    (hH : Shape.Concatenates [S64x64, S64x64] S64x128 1) (hV : Shape.Concatenates [S64x128, S64x128] S128x128 0) :
    (concatenate S128x128 0
      [⟨S64x128, concatenate S64x128 1
          [⟨S64x64, transpose S64x64 [1, 0] W hT⟩,
           ⟨S64x64, broadcastInDim S64x64 ![] hZ (constant (F := Ideal) S_ .f32 0x00000000#32)⟩] hH⟩,
       ⟨S64x128, concatenate S64x128 1
          [⟨S64x64, broadcastInDim S64x64 ![] hZ (constant (F := Ideal) S_ .f32 0x00000000#32)⟩,
           ⟨S64x64, transpose S64x64 [1, 0] W hT⟩] hH⟩] hV : S128x128.Idx → EReal)
      = Cert.NodeLinear.blockDiag W := by
  funext i
  obtain ⟨p, q, rfl⟩ : ∃ (p : Fin 128) (q : Fin 128), i = ix2 p q := ⟨i 0, i 1, eq_ix2 i⟩
  have hp := p.isLt
  have hq := q.isLt
  show _ = if p.val / 64 = q.val / 64 then W (ix2 ⟨q.val % 64, _⟩ ⟨p.val % 64, _⟩) else 0
  by_cases hp64 : p.val < 64 <;> by_cases hq64 : q.val < 64
  · -- upper band, left block: the transposed weight itself
    have hc : p.val / 64 = q.val / 64 := by omega
    rw [vcat_top _ _ hV p q hp64, hcat_left _ _ hH ⟨p.val, hp64⟩ q hq64, transpose_read W hT, if_pos hc]
    exact congrArg W (congrArg₂ ix2 (Fin.ext (by show q.val = q.val % 64; omega)) (Fin.ext (by show p.val = p.val % 64; omega)))
  · -- upper band, right block: zero
    have hc : ¬ p.val / 64 = q.val / 64 := by omega
    rw [vcat_top _ _ hV p q hp64, hcat_right _ _ hH ⟨p.val, hp64⟩ q (by omega), zero_read, if_neg hc]
  · -- lower band, left block: zero
    have hc : ¬ p.val / 64 = q.val / 64 := by omega
    rw [vcat_bot _ _ hV p q (by omega), hcat_left _ _ hH _ q hq64, zero_read, if_neg hc]
  · -- lower band, right block: the transposed weight, 64 rows up and 64 columns to the left
    have hc : p.val / 64 = q.val / 64 := by omega
    rw [vcat_bot _ _ hV p q (by omega), hcat_right _ _ hH _ q (by omega), transpose_read W hT, if_pos hc]
    exact congrArg W (congrArg₂ ix2 (Fin.ext (by show q.val - 64 = q.val % 64; omega)) (Fin.ext (by show p.val - 64 = p.val % 64; omega)))

/-- The bias concatenated with itself and cast to one row reads `b[q % 64]` at `(0, q)`. -/
theorem biasTwice_read (b : S64.Idx → EReal) (hC : Shape.Concatenates [S64, S64] S128 0) (hS : S128.ShapeCasts S1x128) :
    (shapeCast S1x128 (concatenate S128 0 [⟨S64, b⟩, ⟨S64, b⟩] hC) hS : S1x128.Idx → EReal) = Cert.NodeLinear.biasTwice b := by
  funext i
  obtain ⟨r, q, rfl⟩ : ∃ (r : Fin 1) (q : Fin 128), i = ix2 r q := ⟨i 0, i 1, eq_ix2 i⟩
  have hq := q.isLt
  show _ = b (ix1 ⟨q.val % 64, _⟩)
  rw [row_read]
  by_cases hq64 : q.val < 64
  · rw [vec_left _ _ hC q hq64]
    exact congrArg b (congrArg ix1 (Fin.ext (by show q.val = q.val % 64; omega)))
  · rw [vec_right _ _ hC q (by omega)]
    exact congrArg b (congrArg ix1 (Fin.ext (by show q.val - 64 = q.val % 64; omega)))

/-- The weight operand when the region is entered is the block-diagonal matrix of the weight argument. -/
theorem V_blockDiag (c : Dev nD) : (Gen.V m c main_v48 : S128x128.Idx → EReal)
    = Cert.NodeLinear.blockDiag (m ((c.tc : Thread nD τ).loc main_arg2)) :=
  (V_w2_term m c).trans (blockDiag_read _ _ _ _ _)

/-- The bias operand when the region is entered is the bias argument written twice, as one row. -/
theorem V_biasTwice (c : Dev nD) : (Gen.V m c main_v50 : S1x128.Idx → EReal)
    = Cert.NodeLinear.biasTwice (m ((c.tc : Thread nD τ).loc main_arg3)) :=
  (V_b2_term m c).trans (biasTwice_read _ _ _)

end Cert.KernelIdeal.HostPrefix
end
-- ==== Proof.HostPacked.lean ====
/-
  What the region finds in its first operand: the aggregated node features, 10592 zero rows appended, with consecutive
  row pairs laid side by side as rows of 128.

  The host pads the aggregation `A : [100000, 64]` with zero rows to `[110592, 64]` and casts it to `[55296, 128]`.
  A cast keeps the row-major position, and `(2r + q / 64) · 64 + q % 64 = r · 128 + q`, so the entry at `(r, q)` is the
  padded array's at row `2r + q / 64`, column `q % 64`: `A` there when that row is one of the first 100000, and the padding
  value — the integer `0` as a float, which is `0` — otherwise.
-/
import proofs.«177355_j66340064854627_2_alg».proof.Proof.Gen.KernelIdeal.Frame
import proofs.«177355_j66340064854627_2_alg».proof.Proof.Spec
import proofs.«177355_j66340064854627_2_alg».proof.Proof.Agg
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal

set_option maxRecDepth 16384
noncomputable section
namespace Cert.KernelIdeal.HostPrefix
open Cert.KernelIdeal Cert.KernelIdeal.Gen Idealize.ShloMosaic Idealize.ShloMosaic.TcCoe Idealize.SL.Sem Idealize.ShloMosaic.StableHlo
open Idealize.ShloMosaic.ValueIdx

/-! ## The host operations' term -/

section Term
variable {F : FTy → Type} [FloatOps F]

/-- The aggregation of node features along the edges, in this program's own spelling, at any float instance. It is
    named and never opened. -/
def aggK (x : FVec F S100000x64 .f32) (e : IVec S2x1600000 32) : FVec F S100000x64 .f32 :=
  Host.scatterAdd (F := F) scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x64_S1700000x1_S1700000x64_1_0_n_n_0_1_164 x (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.powf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.powf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))

variable (m : (ℓ : Loc nD τ sig) → Buf (Elt F) ℓ)

set_option maxHeartbeats 16000000 in
/-- The first operand as the host operations spell it: the aggregation, padded with 10592 rows, cast to rows of 128. -/
theorem V_packed_term (c : Dev nD) : Gen.V m c main_v52 =
    shapeCast S55296x128 (pad S110592x64 ![0, 0] ![10592, 0] ![0, 0]
      (aggK (F := F) (m ((c.tc : Thread nD τ).loc main_arg0)) (m ((c.tc : Thread nD τ).loc main_arg1)))
      (sitofp (F := F) .f32 (constantI S_ 32 0#32)) pads_S100000x64_S110592x64_0105920_000 h_S_) shapeCasts_S110592x64_S55296x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl <;> (unfold aggK; rfl)

end Term

set_option maxRecDepth 65536 in
set_option maxHeartbeats 16000000 in
/-- At the exact instance the aggregation in this program's spelling is the one the reference names: the same operations
    in the same order, over shapes and dimension records that are equal literal by literal. -/
theorem aggK_eq (x : FVec Ideal S100000x64 .f32) (e : IVec S2x1600000 32) : aggK (F := Ideal) x e = Cert.NodeLinear.agg x e := by
  unfold aggK Cert.NodeLinear.agg
  rfl

/-! ## Reads of the cast, the padding and the padding value at an index -/

section Reads
variable {α : Type}

/-- Rows of 64 cast to rows of 128: the entry at `(r, q)` is the one at row `2r + q / 64`, column `q % 64`, the same
    row-major position. -/
theorem packed_row_read (x : S110592x64.Idx → α) (h : S110592x64.ShapeCasts S55296x128) (r : Fin 55296) (q : Fin 128) :
    shapeCast S55296x128 x h (ix2 r q)
      = x (ix2 ⟨2 * r.val + q.val / 64, by have := r.isLt; have := q.isLt; omega⟩ ⟨q.val % 64, Nat.mod_lt _ (by decide)⟩) :=
  shapeCast_apply x h (ix2 r q) (ix2 ⟨2 * r.val + q.val / 64, by have := r.isLt; have := q.isLt; omega⟩ ⟨q.val % 64, Nat.mod_lt _ (by decide)⟩) (by
    rw [Shape.rowMajor_val_two, Shape.rowMajor_val_two]
    show (2 * r.val + q.val / 64) * 64 + q.val % 64 = r.val * 128 + q.val
    omega)

/-- Rows appended behind: at one of the first 100000 rows the padded array is the array. -/
theorem packed_pad_inside (A : S100000x64.Idx → α) {u : Shape} (v : u.Idx → α)
    (h : S100000x64.Pads (![0, 0] : Fin 2 → Nat) ![10592, 0] ![0, 0] S110592x64) (hu : 0 < u.numel)
    (n : Fin 110592) (k : Fin 64) (hn : n.val < 100000) :
    pad S110592x64 ![0, 0] ![10592, 0] ![0, 0] A v h hu (ix2 n k) = A (ix2 ⟨n.val, hn⟩ k) :=
  pad_apply_of_inside _ _ _ A v h hu (ix2 n k) (ix2 ⟨n.val, hn⟩ k) (fun a => by
    match a with
    | ⟨0, _⟩ => show n.val = 0 + n.val * (0 + 1); omega
    | ⟨1, _⟩ => show k.val = 0 + k.val * (0 + 1); omega)

/-- Rows appended behind: at a row from 100000 on the padded array is the padding value. -/
theorem packed_pad_outside (A : S100000x64.Idx → α) {u : Shape} (v : u.Idx → α)
    (h : S100000x64.Pads (![0, 0] : Fin 2 → Nat) ![10592, 0] ![0, 0] S110592x64) (hu : 0 < u.numel)
    (n : Fin 110592) (k : Fin 64) (hn : 100000 ≤ n.val) :
    pad S110592x64 ![0, 0] ![10592, 0] ![0, 0] A v h hu (ix2 n k) = v (Shape.Idx.first hu) :=
  pad_apply_of_not_inside _ _ _ A v h hu (ix2 n k) (0 : Fin 2) (by
    show ¬(0 ≤ n.val ∧ (n.val - 0) % (0 + 1) = 0 ∧ (n.val - 0) / (0 + 1) < 100000)
    omega)

end Reads

/-- The padding value, the integer word `0` read as a float, is `0`. -/
theorem packed_zero_read (j : S_.Idx) : (sitofp (F := Ideal) .f32 (constantI S_ 32 0#32) : S_.Idx → EReal) j = 0 := by
  show (((0#32 : BitVec 32).toInt : ℝ) : EReal) = 0
  rw [show (0#32 : BitVec 32).toInt = 0 from by decide, Int.cast_zero, EReal.coe_zero]

/-! ## The operand as a function of the aggregation -/

/-- An array of 100000 rows of 64, padded with zero rows to 110592 and cast to rows of 128, is the array's row pairs
    side by side: `P[r, q] = A[2r + q / 64, q % 64]` where that row exists and `0` otherwise. -/
theorem packed_read (A : S100000x64.Idx → EReal)
    (hP : S100000x64.Pads (![0, 0] : Fin 2 → Nat) ![10592, 0] ![0, 0] S110592x64) (hu : 0 < S_.numel)
    (hS : S110592x64.ShapeCasts S55296x128) :
    (shapeCast S55296x128 (pad S110592x64 ![0, 0] ![10592, 0] ![0, 0] A
        (sitofp (F := Ideal) .f32 (constantI S_ 32 0#32)) hP hu) hS : S55296x128.Idx → EReal)
      = Cert.NodeLinear.packed A := by
  funext i
  obtain ⟨r, q, rfl⟩ : ∃ (r : Fin 55296) (q : Fin 128), i = ix2 r q := ⟨i 0, i 1, eq_ix2 i⟩
  have hr := r.isLt
  have hq := q.isLt
  rw [packed_row_read]
  show _ = if h : 2 * r.val + q.val / 64 < 100000 then A (ix2 ⟨2 * r.val + q.val / 64, h⟩ ⟨q.val % 64, _⟩) else 0
  by_cases hn : 2 * r.val + q.val / 64 < 100000
  · rw [dif_pos hn, packed_pad_inside A _ hP hu _ _ hn]
  · rw [dif_neg hn, packed_pad_outside A _ hP hu _ _ (by show 100000 ≤ 2 * r.val + q.val / 64; omega), packed_zero_read]

/-- The first operand when the region is entered is the packed aggregation of the two arguments. -/
theorem V_packed (m : (ℓ : Loc nD τ sig) → Buf (Elt Ideal) ℓ) (c : Dev nD) :
    (Gen.V m c main_v52 : S55296x128.Idx → EReal)
      = Cert.NodeLinear.packed (Cert.NodeLinear.agg (m ((c.tc : Thread nD τ).loc main_arg0)) (m ((c.tc : Thread nD τ).loc main_arg1))) :=
  (V_packed_term (F := Ideal) m c).trans (by rw [aggK_eq]; exact packed_read _ _ _ _)

end Cert.KernelIdeal.HostPrefix
end
-- ==== Proof.KernelRun.lean ====
/-
  The kernel's program, read end to end.

  Its result is the host tail (unpack the row pairs, drop the appended rows) of the output array of the one
  pallas_call; that array is one whole-array function of the three operand arrays as the region finds them; and those
  are, by the host operations before the region, the packed aggregation, the block-diagonal weight and the doubled
  bias. The algebra of the specification turns the composite into the dense layer of the aggregation.
-/
import proofs.«177355_j66340064854627_2_alg».proof.Proof.Gen.KernelIdeal.Frame
import proofs.«177355_j66340064854627_2_alg».proof.Proof.Spec
import proofs.«177355_j66340064854627_2_alg».proof.Proof.Agg
import proofs.«177355_j66340064854627_2_alg».proof.Proof.Algebra
import proofs.«177355_j66340064854627_2_alg».proof.Proof.Blocks
import proofs.«177355_j66340064854627_2_alg».proof.Proof.Tail
import proofs.«177355_j66340064854627_2_alg».proof.Proof.HostWeights
import proofs.«177355_j66340064854627_2_alg».proof.Proof.HostPacked

noncomputable section

namespace Cert.KernelIdeal.Run

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the program's result buffer holds after the host tail: the dense layer of the aggregation. -/
theorem result_eq (c : Dev nD) :
    Pipeline.afterTail₀ cfgs (dats m) 0 (V0 m) [hostOps1] c main_v55
      = Cert.NodeLinear.lin
          (Cert.NodeLinear.agg (m ((c.tc : Thread nD τ).loc main_arg0)) (m ((c.tc : Thread nD τ).loc main_arg1)))
          (m ((c.tc : Thread nD τ).loc main_arg2)) (m ((c.tc : Thread nD τ).loc main_arg3)) := by
  rw [Tail.tail_eq m c, Blocks.final m c, HostPrefix.V_packed m c, HostPrefix.V_blockDiag m c,
    HostPrefix.V_biasTwice m c]
  exact Cert.NodeLinear.unpack_packedOut _ _ _

/-- Every weakly fair execution of the kernel's program terminates with the result at the dense layer of the
    aggregation of its arguments, and the arguments unchanged. -/
theorem run : θ_run defs (onTc (τ := τ) (main (F := Ideal))) ⟨m, fun _ => 0, ρ⟩ fun r => ∀ c : Dev nD,
      r.2.mem ((c.tc : Thread nD τ).loc main_v55)
        = Cert.NodeLinear.lin
            (Cert.NodeLinear.agg (m ((c.tc : Thread nD τ).loc main_arg0)) (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v55 (Pipeline.mem_restRefs_of main_v55 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.lean ====
/-
  The certificate: a graph-convolution layer. Both programs extend the edge list by self-loops, count in-degrees,
  weight every edge by the inverse square roots of its endpoints' degrees, and sum the weighted source features into
  their destination nodes — the same host operations on both sides, named `agg` and never opened (Proof/Agg.lean).
  They differ in the dense layer that follows. The reference computes  `A · Wᵀ + b`  with one host matrix product. The
  kernel pads `A` with zero rows, packs consecutive row pairs into 128-wide rows, multiplies nine blocks of packed rows
  on the matrix unit by the block-diagonal matrix `diag(Wᵀ, Wᵀ)`, adds the bias written twice, and unpacks. At the
  exact instance (floats are extended reals, a change of format is the identity) the two agree index by index:
  a product with the zero block is `0` whatever the other factor, so the 128-term sums are the 64-term sums
  (Proof/Spec.lean states both sides, Proof/Algebra.lean the law). No finiteness of the inputs is used.

  The modules: Spec (the mathematics), Algebra (the law), Agg (the shared aggregation), RefRun and RefValue (the
  reference's run and its value), Body (one grid step at an index), Blocks (the output array from the nine steps),
  HostPacked and HostWeights (what the region finds in its operands), Tail (the host operations after the region),
  KernelRun (the kernel's program end to end). The ideal pass rewrote nothing, so `preserves` is `True`.
-/
import proofs.«177355_j66340064854627_2_alg».proof.Defs
import proofs.«177355_j66340064854627_2_alg».proof.Proof.Gen.Kernel
import proofs.«177355_j66340064854627_2_alg».proof.Proof.Gen.Kernel.Skeleton
import proofs.«177355_j66340064854627_2_alg».proof.Proof.Gen.Kernel.Launch
import proofs.«177355_j66340064854627_2_alg».proof.Proof.Gen.Kernel.Points
import proofs.«177355_j66340064854627_2_alg».proof.Proof.Gen.Kernel.Frame
import proofs.«177355_j66340064854627_2_alg».proof.Proof.Gen.KernelIdeal
import proofs.«177355_j66340064854627_2_alg».proof.Proof.Gen.KernelIdeal.Skeleton
import proofs.«177355_j66340064854627_2_alg».proof.Proof.Gen.KernelIdeal.Launch
import proofs.«177355_j66340064854627_2_alg».proof.Proof.Gen.KernelIdeal.Points
import proofs.«177355_j66340064854627_2_alg».proof.Proof.Gen.KernelIdeal.Frame
import proofs.«177355_j66340064854627_2_alg».proof.Proof.Gen.ReferenceIdeal
import proofs.«177355_j66340064854627_2_alg».proof.Proof.Gen.Pre_finite_inputs
import proofs.«177355_j66340064854627_2_alg».proof.Proof.RefRun
import proofs.«177355_j66340064854627_2_alg».proof.Proof.RefValue
import proofs.«177355_j66340064854627_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at the dense layer of the shared aggregation. -/
theorem algebraic : Cert.algebraic_KernelIdeal_ReferenceIdeal := by
  intro m ρ m' ρ' _ hagree
  refine ⟨fun c => Cert.NodeLinear.lin
      (Cert.NodeLinear.agg (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
